-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)

variable [Facts₀]

class Facts : Prop extends Facts₀ where

variable [Facts]
-- ==== Proof.Consts.lean ====
/-
  The float constants the two programs spell, as the extended reals their f32 words denote. The kernel computes
  x * (4.5 - 0.5 * x) + 2 and the reference (x + 2) + x * 3 - (x - 1) * (x * 0.5); every one of the five constants
  is a dyadic rational, so each word denotes exactly the real number written in the source. The sixth word is the
  positive infinity the precondition compares every |x| against.
-/
import Idealize.ShloMosaic.PureOps.Ideal

noncomputable section

namespace Cert.Consts

open Idealize.ShloMosaic

/-- The word of `4.5` denotes the real 9/2. -/
theorem ofBits_nine_halves : Ideal.ofBits .f32 0x40900000#32 = ((9 / 2 : ℝ) : EReal) := by
  simp [Ideal.ofBits, Ideal.ieee, -EReal.coe_mul]; norm_num

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of `3.0` denotes the real 3. -/
theorem ofBits_three : Ideal.ofBits .f32 0x40400000#32 = ((3 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The all-ones exponent with a zero fraction and a clear sign denotes the top element. -/
theorem ofBits_inf : Ideal.ofBits .f32 0x7F800000#32 = (⊤ : EReal) := by
  simp [Ideal.ofBits, Ideal.ieee]

end Cert.Consts

end
-- ==== Proof.Finite.lean ====
/-
  What the precondition says of one entry. The precondition is the host predicate "all of |x| < +inf": it takes
  |x| entry by entry, compares each with the f32 word of positive infinity by the ordered less-than, and folds the
  truth values with "and" from the constant true over both axes. If the fold is true then every comparison was
  true; |x| on the extended reals is max x (-x), and max x (-x) is below the top element exactly when x is neither
  the top nor the bottom element: such an x is a real number.
-/
import proofs.«112766_j73667279061083_2_alg».proof.Pre_finite_inputs
import proofs.«112766_j73667279061083_2_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The rank-0 result of a reduction over every axis has one index. -/
instance : Subsingleton S_.Idx := ⟨fun a b => funext fun d => d.elim0⟩

/-- Under the precondition every entry of the argument array is a real number. -/
theorem real_of_pre [Facts] (x : FVec Ideal S8192x8192 .f32)
    (h : fn (F := Ideal) x = fun _ => 1#1) (i : S8192x8192.Idx) : ∃ r : ℝ, x i = (r : EReal) := by
  have h0 := congrFun h ValueIdx.ix0
  dsimp only [fn] at h0
  -- the fold by "and" is true, so the comparison at `i` is
  have hi := Host.reduce_andi_all _ _ _ _ _ h0 i
  have hc : Ideal.cmp .olt (max (x i) (-(x i))) (Ideal.ofBits .f32 0x7F800000#32) = 1#1 := hi
  rw [Cert.Consts.ofBits_inf] at hc
  have hlt : max (x i) (-(x i)) < (⊤ : EReal) := by
    by_contra hn
    simp [Ideal.cmp, hn] at hc
  obtain ⟨h1, h2⟩ := max_lt_iff.mp hlt
  have hb : x i ≠ (⊥ : EReal) := by
    intro e
    rw [e] at h2
    simp at h2
  exact ⟨EReal.toReal (x i), (EReal.coe_toReal h1.ne hb).symm⟩

end Cert.Finite

end
-- ==== Proof.Poly.lean ====
/-
  The one algebraic law of this certificate. For a REAL number r,
      (r + 2) + r * 3 - (r - 1) * (r * (1/2))  =  r * (9/2 - (1/2) * r) + 2 :
  both sides are the polynomial -(1/2) r^2 + (9/2) r + 2. On the extended reals the identity is read through the
  embedding of the reals, where sums, differences and products of embedded reals are the embedded sums, differences
  and products; the law uses distributivity, which fails at the infinities, so it is stated for a real argument only.
-/
import Idealize.ShloMosaic.PureOps.Ideal

noncomputable section

namespace Cert.Poly

/-- The reference's arrangement and the kernel's strength-reduced arrangement of the quadratic agree at every real. -/
theorem quadratic_eq (r : ℝ) :
    ((r : EReal) + ((2 : ℝ) : EReal) + (r : EReal) * ((3 : ℝ) : EReal))
        - ((r : EReal) - ((1 : ℝ) : EReal)) * ((r : EReal) * ((1 / 2 : ℝ) : EReal))
      = (r : EReal) * (((9 / 2 : ℝ) : EReal) - ((1 / 2 : ℝ) : EReal) * (r : EReal)) + ((2 : ℝ) : EReal) := by
  have h : (r + 2 + r * 3) - (r - 1) * (r * (1 / 2)) = r * (9 / 2 - 1 / 2 * r) + 2 := by ring
  exact_mod_cast h

end Cert.Poly

end
-- ==== Proof.Bridge.lean ====
/-
  The two programs compute one function of a real-valued array. At an index i with x i a real number r, the
  reference's composed term reads (r + 2) + r * 3 - (r - 1) * (r * (1/2)) and the kernel's whole-array function
  reads r * (9/2 - (1/2) * r) + 2: every broadcast of a scalar constant read at i is that constant, each of the five
  words denotes its dyadic rational, and the two arrangements of the quadratic agree at every real.
-/
import proofs.«112766_j73667279061083_2_alg».proof.Proof.Gen.KernelIdeal.Value
import proofs.«112766_j73667279061083_2_alg».proof.Proof.Gen.ReferenceIdeal.Run
import proofs.«112766_j73667279061083_2_alg».proof.Proof.Consts
import proofs.«112766_j73667279061083_2_alg».proof.Proof.Poly

noncomputable section

namespace Cert.Bridge

open Idealize.ShloMosaic Cert.ReferenceIdeal Cert.ReferenceIdeal.Gen

/-- On an array whose entries are all real, the reference's result term is the kernel's result function. -/
theorem reference_eq_kernel (x : FVec Ideal S8192x8192 .f32) (hx : ∀ i, ∃ r : ℝ, x i = (r : EReal)) :
    subf (addf (addf x (broadcastInDim S8192x8192 ![] bcast_S_S8192x8192 (constant S_ .f32 0x40000000#32)))
               (mulf x (broadcastInDim S8192x8192 ![] bcast_S_S8192x8192 (constant S_ .f32 0x40400000#32))))
         (mulf (subf x (broadcastInDim S8192x8192 ![] bcast_S_S8192x8192 (constant S_ .f32 0x3F800000#32)))
               (mulf x (broadcastInDim S8192x8192 ![] bcast_S_S8192x8192 (constant S_ .f32 0x3F000000#32))))
      = Cert.KernelIdeal.Value.G1 (F := Ideal) x := by
  funext i
  obtain ⟨r, hr⟩ := hx i
  simp only [Cert.KernelIdeal.Value.G1, subf, addf, mulf, broadcastInDim, constant, Ideal.addf_def, Ideal.subf_def,
    Ideal.mulf_def, Ideal.ofBits_def, Cert.Consts.ofBits_two, Cert.Consts.ofBits_three, Cert.Consts.ofBits_one,
    Cert.Consts.ofBits_half, Cert.Consts.ofBits_nine_halves, hr]
  exact Cert.Poly.quadratic_eq r

end Cert.Bridge

end
-- ==== Proof.lean ====
/-
  The kernel streams an f32[8192, 8192] array through row blocks of 256 rows and writes, entry by entry,
  x * (4.5 - 0.5 * x) + 2; the reference computes (x + 2) + x * 3 - (x - 1) * (x * 0.5) on the whole array. Both are
  the quadratic -(1/2) x^2 + (9/2) x + 2, and all five constants are dyadic rationals that their f32 words denote
  exactly, so on the extended reals the two results agree wherever x is a real number. The law joining the two
  arrangements is distributivity, which fails at the infinities; the precondition (every |x| is below +inf) is what
  supplies that each entry is real.

  The pieces: the 32 row blocks tile the array and each point writes its block of one whole-array function (the
  generated value module's closed form); the reference's run ends at its operations' composed term (the generated
  run module); every entry is real under the precondition (Proof/Finite.lean); at a real entry the reference's term
  is the kernel's function (Proof/Bridge.lean over Proof/Consts.lean and Proof/Poly.lean). The frame claims are the
  value runs with the result dropped, and the word-level kernel's generated frame; no operation was rewritten by the
  idealization, so that conjunct is trivial.
-/
import proofs.«112766_j73667279061083_2_alg».proof.Defs
import proofs.«112766_j73667279061083_2_alg».proof.Proof.Gen.Kernel.Frame
import proofs.«112766_j73667279061083_2_alg».proof.Proof.Gen.KernelIdeal.Value
import proofs.«112766_j73667279061083_2_alg».proof.Proof.Gen.Pre_finite_inputs
import proofs.«112766_j73667279061083_2_alg».proof.Proof.Gen.ReferenceIdeal.Run
import proofs.«112766_j73667279061083_2_alg».proof.Proof.Finite
import proofs.«112766_j73667279061083_2_alg».proof.Proof.Bridge
import Idealize.ShloMosaic.Adequacy
import Idealize.ShloMosaic.Init

noncomputable section

namespace Cert.Proof

open Idealize.ShloMosaic Idealize.SL.Sem

/-- The idealized kernel terminates without a fault and leaves its argument as launched: its value run, the
    result's equation dropped. -/
theorem frame_KernelIdeal : frame_KernelIdeal := fun m ρ _ =>
  (θ_run Cert.KernelIdeal.defs _ _).mono (fun _ h c => (h c).2) (Cert.KernelIdeal.Value.run (F := Ideal) m ρ)

/-- The idealized reference likewise, by its run. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the argument, the kernel's result array is its quadratic of the argument entry by
    entry, the reference's result is its composed term of the same argument, and the two are one function because
    the precondition makes every entry real. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, hagree c]
  exact Cert.Bridge.reference_eq_kernel _ (Cert.Finite.real_of_pre _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
